-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10 : Shape := ⟨2, ![1024, 10]⟩
abbrev S1024x128 : Shape := ⟨2, ![1024, 128]⟩
abbrev S1024x1x128 : Shape := ⟨3, ![1024, 1, 128]⟩
abbrev S1024x50257 : Shape := ⟨2, ![1024, 50257]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x1x128 : S_.BroadcastsInDim S1024x1x128 (![] : Fin 0 → Fin S1024x1x128.rank)
  reducesTo_S1024x1x128_S_d0_1_2 : S1024x1x128.ReducesTo [0, 1, 2] S_
  bcast_S_S1024x50257 : S_.BroadcastsInDim S1024x50257 (![] : Fin 0 → Fin S1024x50257.rank)
  reducesTo_S1024x50257_S_d0_1 : S1024x50257.ReducesTo [0, 1] S_

variable [Facts]

def fn_part1 {F : FTy → Type} [FloatOps F] (main_arg5 : FVec F S1024x50257 .f32) (main_v13 : IVec S_ 1) (main_v16 : IVec S1024x1x128 1) : IVec S_ 1 :=
  let main_c_5 : IVec S_ 1 := constantI S_ 1 1#1
  let main_v17 : IVec S_ 1 := (fun x v => Host.reduce IntOp.andi x v reducesTo_S1024x1x128_S_d0_1_2 h_S_) main_v16 main_c_5
  let main_v18 : IVec S_ 1 := andi main_v13 main_v17
  let main_v19 : FVec F S1024x50257 .f32 := Host.absf main_arg5
  let main_cst_6 : FVec F S_ .f32 := constant S_ .f32 0x7F800000#32
  let main_v20 : FVec F S1024x50257 .f32 := broadcastInDim S1024x50257 ![] bcast_S_S1024x50257 main_cst_6
  let main_v21 : IVec S1024x50257 1 := cmpf .olt main_v19 main_v20
  let main_c_7 : IVec S_ 1 := constantI S_ 1 1#1
  let main_v22 : IVec S_ 1 := (fun x v => Host.reduce IntOp.andi x v reducesTo_S1024x50257_S_d0_1 h_S_) main_v21 main_c_7
  let main_v23 : IVec S_ 1 := andi main_v18 main_v22
  main_v23

def fn {F : FTy → Type} [FloatOps F] (main_arg0 : IVec S1024x10 32) (main_arg1 : FVec F S1024x128 .f32) (main_arg2 : FVec F S1024x128 .f32) (main_arg3 : FVec F S1024x1x128 .f32) (main_arg4 : FVec F S1024x1x128 .f32) (main_arg5 : FVec F S1024x50257 .f32) : IVec S_ 1 :=
  let main_v0 : FVec F S1024x128 .f32 := Host.absf main_arg1
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg2
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x1x128 .f32 := Host.absf main_arg3
  let main_cst_2 : FVec F S_ .f32 := constant S_ .f32 0x7F800000#32
  let main_v10 : FVec F S1024x1x128 .f32 := broadcastInDim S1024x1x128 ![] bcast_S_S1024x1x128 main_cst_2
  let main_v11 : IVec S1024x1x128 1 := cmpf .olt main_v9 main_v10
  let main_c_3 : IVec S_ 1 := constantI S_ 1 1#1
  let main_v12 : IVec S_ 1 := (fun x v => Host.reduce IntOp.andi x v reducesTo_S1024x1x128_S_d0_1_2 h_S_) main_v11 main_c_3
  let main_v13 : IVec S_ 1 := andi main_v8 main_v12
  let main_v14 : FVec F S1024x1x128 .f32 := Host.absf main_arg4
  let main_cst_4 : FVec F S_ .f32 := constant S_ .f32 0x7F800000#32
  let main_v15 : FVec F S1024x1x128 .f32 := broadcastInDim S1024x1x128 ![] bcast_S_S1024x1x128 main_cst_4
  let main_v16 : IVec S1024x1x128 1 := cmpf .olt main_v14 main_v15
  fn_part1 (F := F) main_arg5 main_v13 main_v16
-- ==== Kernel.lean ====
abbrev S1024x10 : Shape := ⟨2, ![1024, 10]⟩
abbrev S1024x128 : Shape := ⟨2, ![1024, 128]⟩
abbrev S1024x1x128 : Shape := ⟨3, ![1024, 1, 128]⟩
abbrev S1024x50257 : Shape := ⟨2, ![1024, 50257]⟩
abbrev S_ : Shape := ⟨0, ![]⟩
abbrev S1024x10x1 : Shape := ⟨3, ![1024, 10, 1]⟩
abbrev S1 : Shape := ⟨1, ![1]⟩
abbrev S1x1x1 : Shape := ⟨3, ![1, 1, 1]⟩
abbrev S1024 : Shape := ⟨1, ![1024]⟩
abbrev S256x10 : Shape := ⟨2, ![256, 10]⟩
abbrev S256x128 : Shape := ⟨2, ![256, 128]⟩
abbrev S256 : Shape := ⟨1, ![256]⟩

abbrev nBuf : Space → Nat
  | .hbm => 33
  | .vmem => 12
  | .smem => 0
  | _ => 0

abbrev bufTy : (tb : Table) → Fin (tcTables nBuf tb) → BufTy
  | .hbm, ⟨0, _⟩ => ⟨S1024x10, .i32⟩
  | .hbm, ⟨1, _⟩ => ⟨S1024x128, .f32⟩
  | .hbm, ⟨2, _⟩ => ⟨S1024x128, .f32⟩
  | .hbm, ⟨3, _⟩ => ⟨S1024x1x128, .f32⟩
  | .hbm, ⟨4, _⟩ => ⟨S1024x1x128, .f32⟩
  | .hbm, ⟨5, _⟩ => ⟨S1024x50257, .f32⟩
  | .hbm, ⟨6, _⟩ => ⟨S_, .i32⟩
  | .hbm, ⟨7, _⟩ => ⟨S1024x10, .i32⟩
  | .hbm, ⟨8, _⟩ => ⟨S1024x10, .i1⟩
  | .hbm, ⟨9, _⟩ => ⟨S_, .i32⟩
  | .hbm, ⟨10, _⟩ => ⟨S1024x10, .i32⟩
  | .hbm, ⟨11, _⟩ => ⟨S1024x10, .i32⟩
  | .hbm, ⟨12, _⟩ => ⟨S1024x10, .i32⟩
  | .hbm, ⟨13, _⟩ => ⟨S1024x10x1, .i32⟩
  | .hbm, ⟨14, _⟩ => ⟨S1, .i32⟩
  | .hbm, ⟨15, _⟩ => ⟨S_, .i32⟩
  | .hbm, ⟨16, _⟩ => ⟨S1024x10x1, .i32⟩
  | .hbm, ⟨17, _⟩ => ⟨S1024x10x1, .i1⟩
  | .hbm, ⟨18, _⟩ => ⟨S1x1x1, .i32⟩
  | .hbm, ⟨19, _⟩ => ⟨S1024x10x1, .i32⟩
  | .hbm, ⟨20, _⟩ => ⟨S1024x10x1, .i1⟩
  | .hbm, ⟨21, _⟩ => ⟨S1024x10x1, .i1⟩
  | .hbm, ⟨22, _⟩ => ⟨S_, .i1⟩
  | .hbm, ⟨23, _⟩ => ⟨S1024x10, .i1⟩
  | .hbm, ⟨24, _⟩ => ⟨S1024x10, .f32⟩
  | .hbm, ⟨25, _⟩ => ⟨S_, .f32⟩
  | .hbm, ⟨26, _⟩ => ⟨S1024x10, .f32⟩
  | .hbm, ⟨27, _⟩ => ⟨S1024x10, .f32⟩
  | .hbm, ⟨28, _⟩ => ⟨S1024x128, .f32⟩
  | .hbm, ⟨29, _⟩ => ⟨S1024x128, .f32⟩
  | .hbm, ⟨30, _⟩ => ⟨S1024, .f32⟩
  | .hbm, ⟨31, _⟩ => ⟨S_, .f32⟩
  | .hbm, ⟨32, _⟩ => ⟨S_, .f32⟩
  | .local _ .vmem, ⟨0, _⟩ => ⟨S256x10, .f32⟩
  | .local _ .vmem, ⟨1, _⟩ => ⟨S256x10, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256, .f32⟩
  | .local _ .vmem, ⟨11, _⟩ => ⟨S256, .f32⟩
  | _, _ => ⟨S1024x10, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  shapeCasts_S1024x1x128_S1024x128 : S1024x1x128.ShapeCasts S1024x128
  inb_S256x10_S256x10_0_0 : ∀ a, (![0, 0] : Fin 2 → Nat) a + S256x10.size a ≤ S256x10.size a
  h_S256x10 : 0 < S256x10.numel
  shapeCasts_S256x10_S256x10 : S256x10.ShapeCasts S256x10
  reduces_S256x10_S256 : S256x10.Reduces [1] S256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  reduces_S256x128_S256 : S256x128.Reduces [1] S256
  inb_S256_S256_0 : ∀ a, (![0] : Fin 1 → Nat) a + S256.size a ≤ S256.size a
  h_S256 : 0 < S256.numel
  reducesTo_S1024_S_d0 : S1024.ReducesTo [0] S_
  gather_S1024x50257_S1024x10x1_S1024x10_n_1_0_0_1_2_11_wf : GatherDims.WF S1024x50257 S1024x10x1 S1024x10 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10.size a ≤ S1024x10.size a
  hwx0_0 : ∀ i : grid0.Coords, EltTy.bits .f32 = 32 ∨ (Rect.block (s := S1024x10) S256x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S1024x128.size a
  hwx0_1 : ∀ i : grid0.Coords, EltTy.bits .f32 = 32 ∨ (Rect.block (s := S1024x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S1024x128.size a
  hwx0_2 : ∀ i : grid0.Coords, EltTy.bits .f32 = 32 ∨ (Rect.block (s := S1024x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S1024x128.size a
  hwx0_3 : ∀ i : grid0.Coords, EltTy.bits .f32 = 32 ∨ (Rect.block (s := S1024x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S1024x128.size a
  hwx0_4 : ∀ i : grid0.Coords, EltTy.bits .f32 = 32 ∨ (Rect.block (s := S1024x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S1024.size a
  hwx0_5 : ∀ i : grid0.Coords, EltTy.bits .f32 = 32 ∨ (Rect.block (s := S1024) S256.size (cc0_transform_5 i) (hinb0_5 i)).WholeWords (EltTy.packing .f32)

variable [Facts₀]

def gather_S1024x50257_S1024x10x1_S1024x10_n_1_0_0_1_2_11 : GatherDims S1024x50257 S1024x10x1 S1024x10 where
  offsetDims := []
  collapsedSliceDims := [1]
  operandBatchingDims := [0]
  startIndicesBatchingDims := [0]
  startIndexMap := [1]
  indexVectorDim := 2
  sliceSizes := ![1, 1]
  wf := gather_S1024x50257_S1024x10x1_S1024x10_n_1_0_0_1_2_11_wf

abbrev win0_0 : Pipeline.Window sig grid0 :=
  Pipeline.Window.ofSpec (Memref.whole main_v0) S256x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x10 : Shape := ⟨2, ![1024, 10]⟩
abbrev S1024x128 : Shape := ⟨2, ![1024, 128]⟩
abbrev S1024x1x128 : Shape := ⟨3, ![1024, 1, 128]⟩
abbrev S1024x50257 : Shape := ⟨2, ![1024, 50257]⟩
abbrev S_ : Shape := ⟨0, ![]⟩
abbrev S1024x10x1 : Shape := ⟨3, ![1024, 10, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S1024x10, .i32⟩
  | .hbm, ⟨1, _⟩ => ⟨S1024x128, .f32⟩
  | .hbm, ⟨2, _⟩ => ⟨S1024x128, .f32⟩
  | .hbm, ⟨3, _⟩ => ⟨S1024x1x128, .f32⟩
  | .hbm, ⟨4, _⟩ => ⟨S1024x1x128, .f32⟩
  | .hbm, ⟨5, _⟩ => ⟨S1024x50257, .f32⟩
  | .hbm, ⟨6, _⟩ => ⟨S_, .i32⟩
  | .hbm, ⟨7, _⟩ => ⟨S1024x10, .i32⟩
  | .hbm, ⟨8, _⟩ => ⟨S1024x10, .i1⟩
  | .hbm, ⟨9, _⟩ => ⟨S_, .i32⟩
  | .hbm, ⟨10, _⟩ => ⟨S1024x10, .i32⟩
  | .hbm, ⟨11, _⟩ => ⟨S1024x10, .i32⟩
  | .hbm, ⟨12, _⟩ => ⟨S1024x10, .i32⟩
  | .hbm, ⟨13, _⟩ => ⟨S1024x10x1, .i32⟩
  | .hbm, ⟨14, _⟩ => ⟨S1, .i32⟩
  | .hbm, ⟨15, _⟩ => ⟨S_, .i32⟩
  | .hbm, ⟨16, _⟩ => ⟨S1024x10x1, .i32⟩
  | .hbm, ⟨17, _⟩ => ⟨S1024x10x1, .i1⟩
  | .hbm, ⟨18, _⟩ => ⟨S1x1x1, .i32⟩
  | .hbm, ⟨19, _⟩ => ⟨S1024x10x1, .i32⟩
  | .hbm, ⟨20, _⟩ => ⟨S1024x10x1, .i1⟩
  | .hbm, ⟨21, _⟩ => ⟨S1024x10x1, .i1⟩
  | .hbm, ⟨22, _⟩ => ⟨S_, .i1⟩
  | .hbm, ⟨23, _⟩ => ⟨S1024x10, .i1⟩
  | .hbm, ⟨24, _⟩ => ⟨S1024x10, .f32⟩
  | .hbm, ⟨25, _⟩ => ⟨S_, .f32⟩
  | .hbm, ⟨26, _⟩ => ⟨S1024x10, .f32⟩
  | .hbm, ⟨27, _⟩ => ⟨S1024x10, .f32⟩
  | .hbm, ⟨28, _⟩ => ⟨S1024x10, .f32⟩
  | .hbm, ⟨29, _⟩ => ⟨S_, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S1024x128, .f32⟩
  | .hbm, ⟨45, _⟩ => ⟨S_, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S1024x10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]

class Facts₀ : Prop where
  bcast_S_S1024x10 : S_.BroadcastsInDim S1024x10 (![] : Fin 0 → Fin S1024x10.rank)
  shapeCasts_S1024x10_S1024x10x1 : S1024x10.ShapeCasts S1024x10x1
  bcast_S_S1024x10x1 : S_.BroadcastsInDim S1024x10x1 (![] : Fin 0 → Fin S1024x10x1.rank)
  bcast_S1_S1x1x1_2 : S1.BroadcastsInDim S1x1x1 (![2] : Fin 1 → Fin S1x1x1.rank)
  bcast_S1x1x1_S1024x10x1_0_1_2 : S1x1x1.BroadcastsInDim S1024x10x1 (![0, 1, 2] : Fin 3 → Fin S1024x10x1.rank)
  reducesTo_S1024x10x1_S1024x10_d2 : S1024x10x1.ReducesTo [2] S1024x10
  h_S_ : 0 < S_.numel
  reducesTo_S1024x10_S_d0_1 : S1024x10.ReducesTo [0, 1] S_
  shapeCasts_S1024x1x128_S1024x128 : S1024x1x128.ShapeCasts S1024x128
  bcast_S_S1024x128 : S_.BroadcastsInDim S1024x128 (![] : Fin 0 → Fin S1024x128.rank)
  reducesTo_S1024x128_S_d0_1 : S1024x128.ReducesTo [0, 1] S_
  gather_S1024x50257_S1024x10x1_S1024x10_n_1_0_0_1_2_11_wf : GatherDims.WF S1024x50257 S1024x10x1 S1024x10 [] [1] [0] [1] [0] 2 ![1, 1]

variable [Facts₀]

def gather_S1024x50257_S1024x10x1_S1024x10_n_1_0_0_1_2_11 : GatherDims S1024x50257 S1024x10x1 S1024x10 where
  offsetDims := []
  collapsedSliceDims := [1]
  operandBatchingDims := [0]
  startIndicesBatchingDims := [0]
  startIndexMap := [1]
  indexVectorDim := 2
  sliceSizes := ![1, 1]
  wf := gather_S1024x50257_S1024x10x1_S1024x10_n_1_0_0_1_2_11_wf

class Facts : Prop extends Facts₀ where

variable [Facts]
-- ==== Proof.RefTerms.lean ====
/-
  The reference's result as named pure functions of its argument arrays, at any float instance.

  `gathered ctx dec` is `take_along_axis(dec, ctx, axis = 1)` as it lowers: a negative index is wrapped by the
  row length 50257, the element is gathered (the start index clamped into the row), and where the wrapped index
  still falls outside [0, 50256] the element is replaced by the NaN pattern. `klArray` is the elementwise
  Gaussian KL term log(σx/σλ) + (σλ² + (μλ − μx)²) / (2·σx²) − 1/2 over [1024, 128]; `dropUnit` drops the unit
  middle axis of μx and σx. `total` is −(sum over [1024, 10] of log of the gathered) + (sum over [1024, 128] of
  the KL array): the reference's scalar result.
-/
import proofs.«139463_j88716844466380_2_alg».proof.Proof.Gen.ReferenceIdeal

noncomputable section

namespace Cert.RefTerms

open Idealize.ShloMosaic Cert.ReferenceIdeal Cert.ReferenceIdeal.Gen

variable {F : FTy → Type} [FloatOps F]

/-- The start indices of the gather: each context index, wrapped by the row length when negative, as a
    [1024, 10, 1] array. -/
def wrapped (ctx : IVec S1024x10 32) : IVec S1024x10x1 32 :=
  shapeCast _ (select (cmpi .slt ctx (broadcastInDim S1024x10 ![] bcast_S_S1024x10 (constantI S_ 32 0#32)))
    (addi ctx (broadcastInDim S1024x10 ![] bcast_S_S1024x10 (constantI S_ 32 50257#32))) ctx) shapeCasts_S1024x10_S1024x10x1

/-- Where the wrapped index lies inside the row, [0, 50256]. -/
def inRow (ctx : IVec S1024x10 32) : IVec S1024x10 1 :=
  Host.reduce IntOp.andi
    (andi (cmpi .sge (wrapped ctx) (broadcastInDim S1024x10x1 ![] bcast_S_S1024x10x1 (constantI S_ 32 0#32)))
      (cmpi .sle (wrapped ctx) (broadcastInDim S1024x10x1 ![0, 1, 2] bcast_S1x1x1_S1024x10x1_0_1_2
        (broadcastInDim S1x1x1 ![2] bcast_S1_S1x1x1_2 (constantI S1 32 50256#32)))))
    (constantI S_ 1 1#1) reducesTo_S1024x10x1_S1024x10_d2 h_S_

/-- The gathered probabilities: an element of the row where the wrapped index is in the row, the NaN pattern
    elsewhere. -/
def gathered (ctx : IVec S1024x10 32) (dec : FVec F S1024x50257 .f32) : FVec F S1024x10 .f32 :=
  select (inRow ctx) (Host.gather gather_S1024x50257_S1024x10x1_S1024x10_n_1_0_0_1_2_11 dec (wrapped ctx))
    (broadcastInDim S1024x10 ![] bcast_S_S1024x10 (constant S_ .f32 0x7FC00000#32))

/-- A [1024, 1, 128] array with its unit axis dropped. -/
def dropUnit (x : FVec F S1024x1x128 .f32) : FVec F S1024x128 .f32 :=
  shapeCast _ x shapeCasts_S1024x1x128_S1024x128

/-- The elementwise KL term over [1024, 128], as the host computes it. -/
def klArray (ml sl mx sx : FVec F S1024x128 .f32) : FVec F S1024x128 .f32 :=
  subf (addf (Host.log (Host.divf sx sl))
      (Host.divf (addf (mulf sl sl) (mulf (subf ml mx) (subf ml mx)))
        (mulf (broadcastInDim S1024x128 ![] bcast_S_S1024x128 (constant S_ .f32 0x40000000#32)) (mulf sx sx))))
    (broadcastInDim S1024x128 ![] bcast_S_S1024x128 (constant S_ .f32 0x3F000000#32))

/-- The reference's scalar: minus the sum of the logs of the gathered probabilities, plus the sum of the KL array. -/
def total (ctx : IVec S1024x10 32) (ml sl : FVec F S1024x128 .f32) (mx sx : FVec F S1024x1x128 .f32)
    (dec : FVec F S1024x50257 .f32) : FVec F S_ .f32 :=
  addf (Host.negf (Host.reduceAdd (Host.log (gathered ctx dec)) (constant S_ .f32 0x00000000#32) reducesTo_S1024x10_S_d0_1 h_S_))
    (Host.reduceAdd (klArray ml sl (dropUnit mx) (dropUnit sx)) (constant S_ .f32 0x00000000#32) reducesTo_S1024x128_S_d0_1 h_S_)

end Cert.RefTerms

end
-- ==== Proof.RefRun.lean ====
/-
  The reference program's run, read back: its @main is a straight line of 46 host operations (the 22 of the
  inlined take_along_axis first), so every weakly fair execution terminates, the result buffer holds the
  operations' composed pure term of the argument arrays — `RefTerms.total` of them — and the argument arrays
  end unchanged.
-/
import proofs.«139463_j88716844466380_2_alg».proof.Proof.RefTerms
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in program order; the called function's operations stand at its call site, over the
    call's own buffers. -/
abbrev ops : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S1024x10, .i32⟩) main_call0_v0) (broadcastInDim S1024x10 ![] bcast_S_S1024x10),
    TRef.binary (TRef.of (T := ⟨S1024x10, .i32⟩) main_arg0) (TRef.of (T := ⟨S1024x10, .i32⟩) main_call0_v0) (TRef.of (T := ⟨S1024x10, .i1⟩) main_call0_v1) (cmpi .slt),
    TRef.nullary (TRef.of (T := ⟨S_, .i32⟩) main_call0_c_0) (constantI S_ 32 50257#32),
    TRef.unary (TRef.of (T := ⟨S_, .i32⟩) main_call0_c_0) (TRef.of (T := ⟨S1024x10, .i32⟩) main_call0_v2) (broadcastInDim S1024x10 ![] bcast_S_S1024x10),
    TRef.binary (TRef.of (T := ⟨S1024x10, .i32⟩) main_arg0) (TRef.of (T := ⟨S1024x10, .i32⟩) main_call0_v2) (TRef.of (T := ⟨S1024x10, .i32⟩) main_call0_v3) addi,
    TRef.ternary (TRef.of (T := ⟨S1024x10, .i1⟩) main_call0_v1) (TRef.of (T := ⟨S1024x10, .i32⟩) main_call0_v3) (TRef.of (T := ⟨S1024x10, .i32⟩) main_arg0) (TRef.of (T := ⟨S1024x10, .i32⟩) main_call0_v4) select,
    TRef.reshape (TRef.of (T := ⟨S1024x10, .i32⟩) main_call0_v4) (TRef.of (T := ⟨S1024x10x1, .i32⟩) main_call0_v5) rfl shapeCasts_S1024x10_S1024x10x1,
    TRef.nullary (TRef.of (T := ⟨S1, .i32⟩) main_call0_c_1) (constantI S1 32 50256#32),
    TRef.nullary (TRef.of (T := ⟨S_, .i32⟩) main_call0_c_2) (constantI S_ 32 0#32),
    TRef.unary (TRef.of (T := ⟨S_, .i32⟩) main_call0_c_2) (TRef.of (T := ⟨S1024x10x1, .i32⟩) main_call0_v6) (broadcastInDim S1024x10x1 ![] bcast_S_S1024x10x1),
    TRef.binary (TRef.of (T := ⟨S1024x10x1, .i32⟩) main_call0_v5) (TRef.of (T := ⟨S1024x10x1, .i32⟩) main_call0_v6) (TRef.of (T := ⟨S1024x10x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S1024x10x1, .i32⟩) main_call0_v9) (broadcastInDim S1024x10x1 ![0, 1, 2] bcast_S1x1x1_S1024x10x1_0_1_2),
    TRef.binary (TRef.of (T := ⟨S1024x10x1, .i32⟩) main_call0_v5) (TRef.of (T := ⟨S1024x10x1, .i32⟩) main_call0_v9) (TRef.of (T := ⟨S1024x10x1, .i1⟩) main_call0_v10) (cmpi .sle),
    TRef.binary (TRef.of (T := ⟨S1024x10x1, .i1⟩) main_call0_v7) (TRef.of (T := ⟨S1024x10x1, .i1⟩) main_call0_v10) (TRef.of (T := ⟨S1024x10x1, .i1⟩) main_call0_v11) andi,
    TRef.nullary (TRef.of (T := ⟨S_, .i1⟩) main_call0_c_3) (constantI S_ 1 1#1),
    TRef.binary (TRef.of (T := ⟨S1024x10x1, .i1⟩) main_call0_v11) (TRef.of (T := ⟨S_, .i1⟩) main_call0_c_3) (TRef.of (T := ⟨S1024x10, .i1⟩) main_call0_v12) (fun x v => Host.reduce IntOp.andi x v reducesTo_S1024x10x1_S1024x10_d2 h_S_),
    TRef.binary (TRef.of (T := ⟨S1024x50257, .f32⟩) main_arg5) (TRef.of (T := ⟨S1024x10x1, .i32⟩) main_call0_v5) (TRef.of (T := ⟨S1024x10, .f32⟩) main_call0_v13) (fun x i => Host.gather gather_S1024x50257_S1024x10x1_S1024x10_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S1024x10, .f32⟩) main_call0_v14) (broadcastInDim S1024x10 ![] bcast_S_S1024x10),
    TRef.ternary (TRef.of (T := ⟨S1024x10, .i1⟩) main_call0_v12) (TRef.of (T := ⟨S1024x10, .f32⟩) main_call0_v13) (TRef.of (T := ⟨S1024x10, .f32⟩) main_call0_v14) (TRef.of (T := ⟨S1024x10, .f32⟩) main_v0) select,
    unary main_v0 main_v1 (Host.log : (⟨S1024x10, .f32⟩ : BufTy).Contents (Elt F) → (⟨S1024x10, .f32⟩ : BufTy).Contents (Elt F)),
    nullary main_cst (constant S_ .f32 0x00000000#32),
    binary main_v1 main_cst main_v2 ((fun x v => Host.reduceAdd x v reducesTo_S1024x10_S_d0_1 h_S_) : (⟨S1024x10, .f32⟩ : BufTy).Contents (Elt F) → (⟨S_, .f32⟩ : BufTy).Contents (Elt F) → (⟨S_, .f32⟩ : BufTy).Contents (Elt F)),
    reshape main_arg3 main_v3 rfl shapeCasts_S1024x1x128_S1024x128,
    reshape main_arg4 main_v4 rfl shapeCasts_S1024x1x128_S1024x128,
    binary main_v4 main_arg2 main_v5 (Host.divf : (⟨S1024x128, .f32⟩ : BufTy).Contents (Elt F) → (⟨S1024x128, .f32⟩ : BufTy).Contents (Elt F) → (⟨S1024x128, .f32⟩ : BufTy).Contents (Elt F)),
    unary main_v5 main_v6 (Host.log : (⟨S1024x128, .f32⟩ : BufTy).Contents (Elt F) → (⟨S1024x128, .f32⟩ : BufTy).Contents (Elt F)),
    binary main_arg2 main_arg2 main_v7 (mulf : (⟨S1024x128, .f32⟩ : BufTy).Contents (Elt F) → (⟨S1024x128, .f32⟩ : BufTy).Contents (Elt F) → (⟨S1024x128, .f32⟩ : BufTy).Contents (Elt F)),
    binary main_arg1 main_v3 main_v8 (subf : (⟨S1024x128, .f32⟩ : BufTy).Contents (Elt F) → (⟨S1024x128, .f32⟩ : BufTy).Contents (Elt F) → (⟨S1024x128, .f32⟩ : BufTy).Contents (Elt F)),
    binary main_v8 main_v8 main_v9 (mulf : (⟨S1024x128, .f32⟩ : BufTy).Contents (Elt F) → (⟨S1024x128, .f32⟩ : BufTy).Contents (Elt F) → (⟨S1024x128, .f32⟩ : BufTy).Contents (Elt F)),
    binary main_v7 main_v9 main_v10 (addf : (⟨S1024x128, .f32⟩ : BufTy).Contents (Elt F) → (⟨S1024x128, .f32⟩ : BufTy).Contents (Elt F) → (⟨S1024x128, .f32⟩ : BufTy).Contents (Elt F)),
    binary main_v4 main_v4 main_v11 (mulf : (⟨S1024x128, .f32⟩ : BufTy).Contents (Elt F) → (⟨S1024x128, .f32⟩ : BufTy).Contents (Elt F) → (⟨S1024x128, .f32⟩ : BufTy).Contents (Elt F)),
    nullary main_cst_0 (constant S_ .f32 0x40000000#32),
    unary main_cst_0 main_v12 (broadcastInDim S1024x128 ![] bcast_S_S1024x128 : (⟨S_, .f32⟩ : BufTy).Contents (Elt F) → (⟨S1024x128, .f32⟩ : BufTy).Contents (Elt F)),
    binary main_v12 main_v11 main_v13 (mulf : (⟨S1024x128, .f32⟩ : BufTy).Contents (Elt F) → (⟨S1024x128, .f32⟩ : BufTy).Contents (Elt F) → (⟨S1024x128, .f32⟩ : BufTy).Contents (Elt F)),
    binary main_v10 main_v13 main_v14 (Host.divf : (⟨S1024x128, .f32⟩ : BufTy).Contents (Elt F) → (⟨S1024x128, .f32⟩ : BufTy).Contents (Elt F) → (⟨S1024x128, .f32⟩ : BufTy).Contents (Elt F)),
    binary main_v6 main_v14 main_v15 (addf : (⟨S1024x128, .f32⟩ : BufTy).Contents (Elt F) → (⟨S1024x128, .f32⟩ : BufTy).Contents (Elt F) → (⟨S1024x128, .f32⟩ : BufTy).Contents (Elt F)),
    nullary main_cst_1 (constant S_ .f32 0x3F000000#32),
    unary main_cst_1 main_v16 (broadcastInDim S1024x128 ![] bcast_S_S1024x128 : (⟨S_, .f32⟩ : BufTy).Contents (Elt F) → (⟨S1024x128, .f32⟩ : BufTy).Contents (Elt F)),
    binary main_v15 main_v16 main_v17 (subf : (⟨S1024x128, .f32⟩ : BufTy).Contents (Elt F) → (⟨S1024x128, .f32⟩ : BufTy).Contents (Elt F) → (⟨S1024x128, .f32⟩ : BufTy).Contents (Elt F)),
    unary main_v2 main_v18 (Host.negf : (⟨S_, .f32⟩ : BufTy).Contents (Elt F) → (⟨S_, .f32⟩ : BufTy).Contents (Elt F)),
    nullary main_cst_2 (constant S_ .f32 0x00000000#32),
    binary main_v17 main_cst_2 main_v19 ((fun x v => Host.reduceAdd x v reducesTo_S1024x128_S_d0_1 h_S_) : (⟨S1024x128, .f32⟩ : BufTy).Contents (Elt F) → (⟨S_, .f32⟩ : BufTy).Contents (Elt F) → (⟨S_, .f32⟩ : BufTy).Contents (Elt F)),
    binary main_v18 main_v19 main_v20 (addf : (⟨S_, .f32⟩ : BufTy).Contents (Elt F) → (⟨S_, .f32⟩ : BufTy).Contents (Elt F) → (⟨S_, .f32⟩ : BufTy).Contents (Elt F)) ]

set_option maxRecDepth 8192 in
/-- The printed @main is that line of operations. -/
theorem main_eq (c : Dev nD) : main (F := F) c = seq ops := rfl
/-- The program scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., nullary_bufs_sub .., binary_bufs_sub .., reshape_bufs_sub .., reshape_bufs_sub .., binary_bufs_sub .., unary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., unary_bufs_sub .., nullary_bufs_sub .., binary_bufs_sub .., binary_bufs_sub ..⟩

set_option maxRecDepth 65536 in
set_option maxHeartbeats 4000000 in
/-- On every device, at any float instance, from any memory with zero counters: every weakly fair execution of
    @main terminates with the result at `RefTerms.total` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Cert.RefTerms.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v20).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.RefRun

end
-- ==== Proof.LibNegSum.lean ====
/-
  Negation against finite sums on the extended reals.

  On [-∞, +∞] addition is commutative and associative, but negation does not distribute over a sum in general:
  -(⊤ + ⊥) = ⊤ while -⊤ + -⊥ = ⊥. It does as soon as no term is +∞ (symmetrically, as soon as none is -∞): if some
  term is -∞ both sides are +∞, and otherwise every term is a real number. This file proves that, and the form a
  row-wise accumulation takes: the sum over rows of (0 - a_i) + b_i is -(the sum of the a_i) + (the sum of the b_i)
  whenever no a_i is +∞.
-/
import Mathlib.Data.EReal.Operations
import Mathlib.Algebra.BigOperators.Group.Finset.Basic

open scoped BigOperators

namespace Cert.LibNegSum

variable {ι : Type*}

/-- A finite sum of extended reals none of which is +∞ is not +∞. -/
theorem sum_ne_top (s : Finset ι) (f : ι → EReal) (h : ∀ i ∈ s, f i ≠ ⊤) : ∑ i ∈ s, f i ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Negation distributes over a finite sum none of whose terms is +∞. -/
theorem neg_sum (s : Finset ι) (f : ι → EReal) (h : ∀ i ∈ s, f i ≠ ⊤) : -(∑ i ∈ s, f i) = ∑ i ∈ s, -(f i) := by
  classical
  induction s using Finset.induction_on with
  | empty => simp
  | insert a s ha ih =>
    have hs : ∑ i ∈ s, f i ≠ ⊤ := sum_ne_top s f fun i hi => h i (Finset.mem_insert_of_mem hi)
    rw [Finset.sum_insert ha, Finset.sum_insert ha,
      EReal.neg_add (Or.inr hs) (Or.inl (h a (Finset.mem_insert_self a s))), sub_eq_add_neg,
      ih fun i hi => h i (Finset.mem_insert_of_mem hi)]

/-- Zero minus an extended real is its negation. -/
theorem zero_sub' (x : EReal) : 0 - x = -x := by rw [sub_eq_add_neg, zero_add]

/-- Row-wise accumulation: with no `a i` equal to +∞, the sum over `i` of `(0 - a i) + b i` is minus the sum of
    the `a i` plus the sum of the `b i`. -/
theorem sum_zero_sub_add [Fintype ι] (a b : ι → EReal) (h : ∀ i, a i ≠ ⊤) :
    ∑ i, ((0 - a i) + b i) = -(∑ i, a i) + ∑ i, b i := by
  rw [Finset.sum_add_distrib, neg_sum _ _ (fun i _ => h i)]
  congr 1
  exact Finset.sum_congr rfl fun i _ => zero_sub' (a i)

end Cert.LibNegSum
-- ==== Proof.Spec.lean ====
/-
  The common meeting point of the two programs, on the extended reals.

  `klTerm μλ σλ μx σx` is one element of the Gaussian KL term, log(σx/σλ) + (σλ² + (μλ − μx)²) / (2·σx²) − 1/2, with
  the ideal instance's total operations (its conventions at zero divisors and non-positive logarithms included:
  both programs apply the same operations to the same elements, so nothing depends on those conventions).

  For a [1024, 10] array `P` of gathered probabilities and [1024, 128] arrays `ML SL MX SX`:
  `rowValue … b` is what the kernel leaves in row `b` of its output, (0 − Σ_c log P[b,c]) + Σ_d klTerm[b,d];
  `rowsTotal` is the host's sum of the rows from zero; `flatTotal` is the reference's arrangement,
  −(0 + Σ_{b,c} log P[b,c]) + (0 + Σ_{b,d} klTerm[b,d]).

  `rowsTotal_eq_flatTotal`: the two agree as soon as no log P[b,c] is +∞. Regrouping the sums is free in a
  commutative monoid; moving the negation across the sum over rows is the step that needs the hypothesis
  (LibNegSum).
-/
import Idealize.ShloMosaic.PureOps.Ideal
import Idealize.ShloMosaic.Lib.ValueIdx
import proofs.«139463_j88716844466380_2_alg».proof.Proof.LibNegSum

noncomputable section

open scoped BigOperators

namespace Cert.Spec

open Idealize.ShloMosaic Idealize.ShloMosaic.ValueIdx

/-- One element of the KL term between N(μλ, σλ²) and N(μx, σx²). -/
def klTerm (ml sl mx sx : EReal) : EReal :=
  Ideal.log (Ideal.div sx sl) + Ideal.div (sl * sl + (ml - mx) * (ml - mx)) (Ideal.ofBits .f32 0x40000000#32 * (sx * sx))
    - Ideal.ofBits .f32 0x3F000000#32

abbrev A10 : Shape := ⟨2, ![1024, 10]⟩
abbrev A128 : Shape := ⟨2, ![1024, 128]⟩
abbrev A1 : Shape := ⟨1, ![1024]⟩

variable (P : A10.Idx → EReal) (ML SL MX SX : A128.Idx → EReal)

/-- Row `b` of the kernel's output. -/
def rowValue (b : Fin 1024) : EReal :=
  (0 - ∑ c : Fin 10, Ideal.log (P (ix2 b c)))
    + ∑ d : Fin 128, klTerm (ML (ix2 b d)) (SL (ix2 b d)) (MX (ix2 b d)) (SX (ix2 b d))

/-- The rows summed from zero: the kernel program's scalar. -/
def rowsTotal : EReal := 0 + ∑ j : A1.Idx, rowValue P ML SL MX SX (j 0)

/-- The reference's arrangement of the same scalar. -/
def flatTotal : EReal :=
  -(0 + ∑ j : A10.Idx, Ideal.log (P j)) + (0 + ∑ j : A128.Idx, klTerm (ML j) (SL j) (MX j) (SX j))

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  refine (Equiv.sum_comp (⟨fun a => ix1 a, fun j => j 0, fun _ => rfl, fun j => (eq_ix1 j).symm⟩ :
    Fin n ≃ (⟨1, ![n]⟩ : Shape).Idx) f).symm

/-- THE LAW: summing row by row, each row carrying its own negated log-likelihood, gives the reference's scalar,
    provided no logarithm is +∞. -/
theorem rowsTotal_eq_flatTotal (h : ∀ j, Ideal.log (P j) ≠ ⊤) :
    rowsTotal P ML SL MX SX = flatTotal P ML SL MX SX := by
  unfold rowsTotal flatTotal rowValue
  rw [zero_add, zero_add, zero_add, sum_idx1, sum_idx2, sum_idx2]
  exact Cert.LibNegSum.sum_zero_sub_add (fun b : Fin 1024 => ∑ c : Fin 10, Ideal.log (P (ix2 b c)))
    (fun b : Fin 1024 => ∑ d : Fin 128, klTerm (ML (ix2 b d)) (SL (ix2 b d)) (MX (ix2 b d)) (SX (ix2 b d)))
    (fun b => Cert.LibNegSum.sum_ne_top _ _ fun c _ => h (ix2 b c))

/-- The logarithm of an extended real other than +∞ is not +∞. -/
theorem log_ne_top {x : EReal} (hx : x ≠ ⊤) : Ideal.log x ≠ ⊤ := by
  induction x with
  | bot => simp
  | top => exact absurd rfl hx
  | coe r =>
    rw [Ideal.log_coe]
    split
    · exact bot_ne_top
    · exact EReal.coe_ne_top _

end Cert.Spec

end
-- ==== Proof.RefValue.lean ====
/-
  The reference's scalar at the ideal instance is `Spec.flatTotal`.

  A host sum over every axis, from the zero pattern, is zero plus the sum over all indices; the host's logarithm and
  quotient are the ideal instance's `log` and `div` elementwise; the splats of 2 and 1/2 read the same value at every
  index. So `RefTerms.total` is −(0 + Σ log gathered) + (0 + Σ klTerm) over the gathered probabilities, μλ, σλ and
  the unit-dropped μx, σx.
-/
import proofs.«139463_j88716844466380_2_alg».proof.Proof.RefTerms
import proofs.«139463_j88716844466380_2_alg».proof.Proof.Spec
import Idealize.ShloMosaic.PureOps.Ideal.Laws

noncomputable section

open scoped BigOperators

namespace Cert.RefValue

open Idealize.ShloMosaic Idealize.ShloMosaic.ValueIdx Cert.ReferenceIdeal Cert.ReferenceIdeal.Gen Cert.Spec Cert.RefTerms

/-- The host's sum of a [1024, 10] array over both axes, from the zero pattern: zero plus the sum of its entries. -/
theorem sumAll10 (x : FVec Ideal S1024x10 .f32) (i : S_.Idx) :
    Host.reduceAdd (F := Ideal) x (constant (F := Ideal) S_ .f32 0x00000000#32) reducesTo_S1024x10_S_d0_1 h_S_ i = 0 + ∑ j, x j := by
  simp only [Host.reduceAdd, Ideal.hostReduceAdd_def]
  refine (Ideal.hostReduceAdd_total reducesTo_S1024x10_S_d0_1 (fun b => b.elim0) x _ i).trans ?_
  congr 1
  exact Ideal.ofBits_zero_f32

/-- The same for a [1024, 128] array. -/
theorem sumAll128 (x : FVec Ideal S1024x128 .f32) (i : S_.Idx) :
    Host.reduceAdd (F := Ideal) x (constant (F := Ideal) S_ .f32 0x00000000#32) reducesTo_S1024x128_S_d0_1 h_S_ i = 0 + ∑ j, x j := by
  simp only [Host.reduceAdd, Ideal.hostReduceAdd_def]
  refine (Ideal.hostReduceAdd_total reducesTo_S1024x128_S_d0_1 (fun b => b.elim0) x _ i).trans ?_
  congr 1
  exact Ideal.ofBits_zero_f32

/-- The host's KL array at an index is the KL term of the four arrays' entries there. -/
theorem klArray_apply (ml sl mx sx : FVec Ideal S1024x128 .f32) (j : S1024x128.Idx) :
    klArray (F := Ideal) ml sl mx sx j = klTerm (ml j) (sl j) (mx j) (sx j) := rfl

/-- THE REFERENCE'S SCALAR is `flatTotal` of the gathered probabilities and the four [1024, 128] arrays. -/
theorem total_eq (ctx : IVec S1024x10 32) (ml sl : FVec Ideal S1024x128 .f32) (mx sx : FVec Ideal S1024x1x128 .f32)
    (dec : FVec Ideal S1024x50257 .f32) :
    total (F := Ideal) ctx ml sl mx sx dec
      = fun _ => flatTotal (gathered (F := Ideal) ctx dec) ml sl (dropUnit (F := Ideal) mx) (dropUnit (F := Ideal) sx) := by
  funext i
  unfold total flatTotal
  show -(Host.reduceAdd (F := Ideal) (Host.log (gathered (F := Ideal) ctx dec)) (constant (F := Ideal) S_ .f32 0x00000000#32) reducesTo_S1024x10_S_d0_1 h_S_ i)
      + Host.reduceAdd (F := Ideal) (klArray (F := Ideal) ml sl (dropUnit (F := Ideal) mx) (dropUnit (F := Ideal) sx)) (constant (F := Ideal) S_ .f32 0x00000000#32) reducesTo_S1024x128_S_d0_1 h_S_ i = _
  rw [sumAll10, sumAll128]
  rfl

end Cert.RefValue

end
-- ==== Proof.KernelRow.lean ====
/-
  The kernel body's result at one row of a block, at the ideal instance.

  The body loads a [256, 10] block of gathered probabilities and four [256, 128] blocks (μλ, σλ, μx, σx) and stores
  one value per row: (0 − the lane sum over the 10 columns of log p) + (the lane sum over the 128 columns of the KL
  term). Both lane sums start from the zero pattern, which is their neutral element, so at the extended reals each
  is the plain finite sum over its row; the shape casts are casts to the same shape (identities); everything else
  is elementwise.
-/
import proofs.«139463_j88716844466380_2_alg».proof.Proof.Gen.KernelIdeal.Skeleton
import proofs.«139463_j88716844466380_2_alg».proof.Proof.Spec
import Idealize.ShloMosaic.Lib.Pipeline.Value
import Idealize.ShloMosaic.PureOps.Ideal.Laws

noncomputable section

open scoped BigOperators

namespace Cert.KernelRow

open Idealize.ShloMosaic Idealize.ShloMosaic.ValueIdx Cert.KernelIdeal Cert.KernelIdeal.Gen Cert.Spec

/-- A lane sum over the 10 columns of a [256, 10] block, from the zero pattern, at row `r`: the sum of the row. -/
theorem laneSum10 (v : FVec Ideal S256x10 .f32) (h : S256x10.Reduces [1] S256) (hφ : FKind.Formats .f32)
    (hacc : (0x00000000#32 : BitVec FTy.f32.bits) = FKind.add.neutral .f32 hφ) (r : Fin 256) :
    multiReduction .add [1] S256 v 0x00000000#32 h hφ hacc (ix1 r) = ∑ c : Fin 10, v (ix2 r c) :=
  (Ideal.multiReduction_add_single v 0x00000000#32 h hφ hacc (ix1 r)).trans
    (Finset.sum_congr rfl fun c _ => congrArg v (funext fun a => Fin.ext (by match a with | ⟨0, _⟩ => rfl | ⟨1, _⟩ => rfl)))

/-- The same over the 128 columns of a [256, 128] block. -/
theorem laneSum128 (v : FVec Ideal S256x128 .f32) (h : S256x128.Reduces [1] S256) (hφ : FKind.Formats .f32)
    (hacc : (0x00000000#32 : BitVec FTy.f32.bits) = FKind.add.neutral .f32 hφ) (r : Fin 256) :
    multiReduction .add [1] S256 v 0x00000000#32 h hφ hacc (ix1 r) = ∑ d : Fin 128, v (ix2 r d) :=
  (Ideal.multiReduction_add_single v 0x00000000#32 h hφ hacc (ix1 r)).trans
    (Finset.sum_congr rfl fun c _ => congrArg v (funext fun a => Fin.ext (by match a with | ⟨0, _⟩ => rfl | ⟨1, _⟩ => rfl)))

/-- THE BODY'S VALUE AT ROW `r` of its block: zero minus the row's sum of log-probabilities, plus the row's sum of
    KL terms. -/
theorem payload_row (x0 : Vec Ideal S256x10 .f32) (x1 x2 x3 x4 : Vec Ideal S256x128 .f32) (r : Fin 256) :
    k0_pay1 (F := Ideal) x0 x1 x2 x3 x4 (ix1 r)
      = (0 - ∑ c : Fin 10, Ideal.log (x0 (ix2 r c)))
        + ∑ d : Fin 128, klTerm (x1 (ix2 r d)) (x2 (ix2 r d)) (x3 (ix2 r d)) (x4 (ix2 r d)) := by
  unfold k0_pay1
  dsimp only
  refine (congrArg₂ (fun a b : EReal => (Ideal.ofBits .f32 0x00000000#32 - a) + b)
    (laneSum10 (log (shapeCast S256x10 x0 shapeCasts_S256x10_S256x10)) reduces_S256x10_S256 _ _ r)
    (laneSum128 _ reduces_S256x128_S256 _ _ r)).trans ?_
  simp only [shapeCast_self, Ideal.ofBits_zero_f32]
  rfl

/-- The same against whole arrays: if row `r` of each loaded block is row `b` of the corresponding [1024, ·] array,
    the body's value at row `r` is `rowValue` of the arrays at row `b`. -/
theorem payload_row_of_arrays (P : A10.Idx → EReal) (ML SL MX SX : A128.Idx → EReal)
    (x0 : Vec Ideal S256x10 .f32) (x1 x2 x3 x4 : Vec Ideal S256x128 .f32) (r : Fin 256) (b : Fin 1024)
    (h0 : ∀ c : Fin 10, x0 (ix2 r c) = P (ix2 b c)) (h1 : ∀ d : Fin 128, x1 (ix2 r d) = ML (ix2 b d))
    (h2 : ∀ d : Fin 128, x2 (ix2 r d) = SL (ix2 b d)) (h3 : ∀ d : Fin 128, x3 (ix2 r d) = MX (ix2 b d))
    (h4 : ∀ d : Fin 128, x4 (ix2 r d) = SX (ix2 b d)) :
    k0_pay1 (F := Ideal) x0 x1 x2 x3 x4 (ix1 r) = rowValue P ML SL MX SX b := by
  refine (payload_row x0 x1 x2 x3 x4 r).trans ?_
  unfold rowValue
  simp only [h0, h1, h2, h3, h4]

end Cert.KernelRow

end
-- ==== Proof.KernelBlocks.lean ====
/-
  From blocks to the array: what the kernel's output array holds after the region.

  The grid has four points; point `t` reads rows 256·t … 256·t + 255 of each input array (all columns) and writes
  back rows 256·t … 256·t + 255 of the [1024] output. So row `r` of point `t`'s block, of every window, is row
  256·t + r of its array, and what the body leaves there is `Spec.rowValue` of the arrays the region finds at that
  row. The four output blocks tile the output array, so after the region the array is `rowValue` at every row.
-/
import proofs.«139463_j88716844466380_2_alg».proof.Proof.Gen.KernelIdeal.Frame
import proofs.«139463_j88716844466380_2_alg».proof.Proof.KernelRow
import Idealize.ShloMosaic.Lib.Pipeline.Value

set_option maxRecDepth 16384

noncomputable section

open scoped BigOperators

namespace Cert.KernelBlocks

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The printed index maps, decided over the grid: every input window's block row index is the output window's, its
    block column index is zero, and the output's block index is at most 3. -/
theorem idx_facts : ∀ t : Fin cfg0.N,
    win0_0.index t (0 : Fin 2) = win0_5.index t (0 : Fin 1) ∧ win0_0.index t (1 : Fin 2) = 0
    ∧
    win0_1.index t (0 : Fin 2) = win0_5.index t (0 : Fin 1) ∧ win0_1.index t (1 : Fin 2) = 0
    ∧
    win0_2.index t (0 : Fin 2) = win0_5.index t (0 : Fin 1) ∧ win0_2.index t (1 : Fin 2) = 0
    ∧
    win0_3.index t (0 : Fin 2) = win0_5.index t (0 : Fin 1) ∧ win0_3.index t (1 : Fin 2) = 0
    ∧
    win0_4.index t (0 : Fin 2) = win0_5.index t (0 : Fin 1) ∧ win0_4.index t (1 : Fin 2) = 0
    ∧ win0_5.index t (0 : Fin 1) ≤ 3 :=
  (by decide +kernel : ∀ t : Fin grid0.N, _)

/-- Every one of the four output blocks is some point's. -/
theorem idx_onto : ∀ q : Fin 4, ∃ t : Fin cfg0.N, win0_5.index t = ![q.val] :=
  (by decide +kernel : ∀ q : Fin 4, ∃ t : Fin grid0.N, win0_5.index t = ![q.val])

/-- The array row that row `r` of point `t`'s blocks is. -/
def rowOf (t : Fin cfg0.N) (r : Fin 256) : Fin 1024 :=
  ⟨win0_5.index t (0 : Fin 1) * 256 + r.val, by
    have h := (idx_facts t).2.2.2.2.2.2.2.2.2.2
    have hr := r.isLt
    omega⟩

/-- Row `r`, column `k` of point `t`'s block of input window 0 is row `rowOf t r`, column `k` of its array. -/
theorem emb0 (t : Fin cfg0.N) (r : Fin 256) (k : Fin 10) :
    ((cfg0.win 0).blk t).view.emb (ix2 r k) = ix2 (rowOf t r) k := by
  obtain ⟨e00, e01, e10, e11, e20, e21, e30, e31, e40, e41, _⟩ := idx_facts t
  funext a; apply Fin.ext
  match a with
  | ⟨0, _⟩ => show win0_0.index t (0 : Fin 2) * 256 + 1 * r.val = win0_5.index t (0 : Fin 1) * 256 + r.val; omega
  | ⟨1, _⟩ => show win0_0.index t (1 : Fin 2) * 10 + 1 * k.val = k.val; omega

/-- Row `r`, column `k` of point `t`'s block of input window 1 is row `rowOf t r`, column `k` of its array. -/
theorem emb1 (t : Fin cfg0.N) (r : Fin 256) (k : Fin 128) :
    ((cfg0.win 1).blk t).view.emb (ix2 r k) = ix2 (rowOf t r) k := by
  obtain ⟨e00, e01, e10, e11, e20, e21, e30, e31, e40, e41, _⟩ := idx_facts t
  funext a; apply Fin.ext
  match a with
  | ⟨0, _⟩ => show win0_1.index t (0 : Fin 2) * 256 + 1 * r.val = win0_5.index t (0 : Fin 1) * 256 + r.val; omega
  | ⟨1, _⟩ => show win0_1.index t (1 : Fin 2) * 128 + 1 * k.val = k.val; omega

/-- Row `r`, column `k` of point `t`'s block of input window 2 is row `rowOf t r`, column `k` of its array. -/
theorem emb2 (t : Fin cfg0.N) (r : Fin 256) (k : Fin 128) :
    ((cfg0.win 2).blk t).view.emb (ix2 r k) = ix2 (rowOf t r) k := by
  obtain ⟨e00, e01, e10, e11, e20, e21, e30, e31, e40, e41, _⟩ := idx_facts t
  funext a; apply Fin.ext
  match a with
  | ⟨0, _⟩ => show win0_2.index t (0 : Fin 2) * 256 + 1 * r.val = win0_5.index t (0 : Fin 1) * 256 + r.val; omega
  | ⟨1, _⟩ => show win0_2.index t (1 : Fin 2) * 128 + 1 * k.val = k.val; omega

/-- Row `r`, column `k` of point `t`'s block of input window 3 is row `rowOf t r`, column `k` of its array. -/
theorem emb3 (t : Fin cfg0.N) (r : Fin 256) (k : Fin 128) :
    ((cfg0.win 3).blk t).view.emb (ix2 r k) = ix2 (rowOf t r) k := by
  obtain ⟨e00, e01, e10, e11, e20, e21, e30, e31, e40, e41, _⟩ := idx_facts t
  funext a; apply Fin.ext
  match a with
  | ⟨0, _⟩ => show win0_3.index t (0 : Fin 2) * 256 + 1 * r.val = win0_5.index t (0 : Fin 1) * 256 + r.val; omega
  | ⟨1, _⟩ => show win0_3.index t (1 : Fin 2) * 128 + 1 * k.val = k.val; omega

/-- Row `r`, column `k` of point `t`'s block of input window 4 is row `rowOf t r`, column `k` of its array. -/
theorem emb4 (t : Fin cfg0.N) (r : Fin 256) (k : Fin 128) :
    ((cfg0.win 4).blk t).view.emb (ix2 r k) = ix2 (rowOf t r) k := by
  obtain ⟨e00, e01, e10, e11, e20, e21, e30, e31, e40, e41, _⟩ := idx_facts t
  funext a; apply Fin.ext
  match a with
  | ⟨0, _⟩ => show win0_4.index t (0 : Fin 2) * 256 + 1 * r.val = win0_5.index t (0 : Fin 1) * 256 + r.val; omega
  | ⟨1, _⟩ => show win0_4.index t (1 : Fin 2) * 128 + 1 * k.val = k.val; omega

/-- Row `r` of point `t`'s output block is row `rowOf t r` of the output array. -/
theorem emb5 (t : Fin cfg0.N) (r : Fin 256) : ((cfg0.win 5).blk t).view.emb (ix1 r) = ix1 (rowOf t r) := by
  funext a; apply Fin.ext
  match a with
  | ⟨0, _⟩ => show win0_5.index t (0 : Fin 1) * 256 + 1 * r.val = win0_5.index t (0 : Fin 1) * 256 + r.val; omega

/-- What the output array holds after the region: at each row, `rowValue` of the arrays the region finds. -/
def rows (c : Dev nD) : S1024.Idx → EReal := fun i =>
  rowValue (V m c main_v0) (V m c main_arg1) (V m c main_arg2) (V m c main_v1) (V m c main_v2) (i 0)

/-- WHAT POINT `t` WRITES BACK is block `t` of `rows`. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold out0_5
  rw [View.canon_unit_zero origin1]
  simp only [View.ld_unit_zero (S := S256x10) origin2, View.ld_unit_zero (S := S256x128) origin2]
  funext j
  obtain ⟨r, rfl⟩ : ∃ r : Fin 256, j = ix1 r := ⟨j 0, eq_ix1 j⟩
  show k0_pay1 (F := Ideal) (iblk m c 0 t) (iblk m c 1 t) (iblk m c 2 t) (iblk m c 3 t) (iblk m c 4 t) (ix1 r)
    = rows m c (((cfg0.win 5).blk t).view.emb (ix1 r))
  rw [emb5]
  refine Cert.KernelRow.payload_row_of_arrays (V m c main_v0) (V m c main_arg1) (V m c main_arg2) (V m c main_v1) (V m c main_v2)
    (iblk m c 0 t) (iblk m c 1 t) (iblk m c 2 t) (iblk m c 3 t) (iblk m c 4 t) r (rowOf t r) ?_ ?_ ?_ ?_ ?_
  · intro k
    show V m c main_v0 (((cfg0.win 0).blk t).view.emb (ix2 r k)) = _
    rw [emb0]
  · intro k
    show V m c main_arg1 (((cfg0.win 1).blk t).view.emb (ix2 r k)) = _
    rw [emb1]
  · intro k
    show V m c main_arg2 (((cfg0.win 2).blk t).view.emb (ix2 r k)) = _
    rw [emb2]
  · intro k
    show V m c main_v1 (((cfg0.win 3).blk t).view.emb (ix2 r k)) = _
    rw [emb3]
  · intro k
    show V m c main_v2 (((cfg0.win 4).blk t).view.emb (ix2 r k)) = _
    rw [emb4]

/-- An index of the output array is in point `t`'s block iff its row is in the block's range. -/
theorem mem_blk (t : Fin cfg0.N) (i : S1024.Idx) :
    i ∈ ((cfg0.win 5).blk t).view.set ↔ ∀ a : Fin 1, win0_5.index t a * S256.size a ≤ (i a).val ∧ (i a).val < win0_5.index t a * S256.size a + S256.size a := by
  show i ∈ ((View.whole main_v3).slice (win0_5.rect t)).set ↔ _
  rw [View.set_slice_whole, Rect.mem_set_unit]
  exact Iff.rfl

/-- The output blocks tile the array: row `i` is in the block of the point whose block index is `i / 256`. -/
theorem cover (i : S1024.Idx) : ∃ t : Fin cfg0.N, (cfg0.win 5).flush t = true ∧ i ∈ ((cfg0.win 5).blk t).view.set := by
  have hi : (i 0).val < 1024 := (i 0).isLt
  obtain ⟨t, ht⟩ := idx_onto ⟨(i 0).val / 256, by omega⟩
  have q : win0_5.index t (0 : Fin 1) = (i 0).val / 256 := congrFun ht 0
  refine ⟨t, flush0_5 t, ?_⟩
  rw [mem_blk]
  intro a
  match a with
  | ⟨0, _⟩ => show win0_5.index t (0 : Fin 1) * 256 ≤ (i 0).val ∧ (i 0).val < win0_5.index t (0 : Fin 1) * 256 + 256; omega

/-- THE OUTPUT ARRAY after the region is `rows`. -/
theorem final (c : Dev nD) : (dats m 0 c).arrAt 5 cfg0.N = rows m c :=
  (dats m 0 c).arrAt_eq_of_cover 5 (rows m c) (fun t _ => flushed_eq m c t) cover

end Cert.KernelBlocks

end
-- ==== Proof.KernelValue.lean ====
/-
  The kernel program's run, read as a value.

  Before the region the host gathers the probabilities (the same lowered take_along_axis as the reference's) and
  drops the unit axis of μx and σx; the region leaves `Spec.rowValue` of those arrays in every row of its output
  (KernelBlocks); after the region the host sums the 1024 rows from zero. So the program's scalar result is
  `Spec.rowsTotal` of the gathered probabilities, μλ, σλ and the two unit-dropped arrays, and its argument arrays
  end unchanged.
-/
import proofs.«139463_j88716844466380_2_alg».proof.Proof.KernelBlocks
import proofs.«139463_j88716844466380_2_alg».proof.Proof.RefTerms
import Idealize.ShloMosaic.Lib.StableHlo.Run
import Idealize.ShloMosaic.PureOps.Ideal.Laws

set_option maxRecDepth 65536

noncomputable section

open scoped BigOperators

namespace Cert.KernelValue

open Idealize.ShloMosaic Idealize.ShloMosaic.TcCoe Idealize.ShloMosaic.ValueIdx Idealize.SL.Sem Idealize.ShloMosaic.StableHlo
open Cert.KernelIdeal Cert.KernelIdeal.Gen Cert.Spec
open Idealize.ShloMosaic.Pipeline (Dat)

variable (m : (ℓ : Loc nD τ sig) → Buf (Elt Ideal) ℓ) (ρ : Dev nD → PrngReg)

/-! ## The arrays the region finds -/

set_option maxHeartbeats 4000000 in
/-- The first window's array is the gathered probabilities of the launch contents. -/
theorem V_gathered (c : Dev nD) :
    (V m c main_v0 : S1024x10.Idx → EReal) = Cert.RefTerms.gathered (F := Ideal) (m ((c : Thread nD τ).loc main_arg0)) (m ((c : Thread nD τ).loc main_arg5)) := by
  dsimp only [V, V0]
  simp only [hostOps0, hostOps0_1, List.flatten_cons, List.flatten_nil, List.append_nil, List.cons_append, List.nil_append]
  after_results_simp
  rfl

set_option maxHeartbeats 4000000 in
/-- The fourth window's array is μx with its unit axis dropped. -/
theorem V_mx (c : Dev nD) :
    (V m c main_v1 : S1024x128.Idx → EReal) = Cert.RefTerms.dropUnit (F := Ideal) (m ((c : Thread nD τ).loc main_arg3)) := by
  dsimp only [V, V0]
  simp only [hostOps0, hostOps0_1, List.flatten_cons, List.flatten_nil, List.append_nil, List.cons_append, List.nil_append]
  after_results_simp
  rfl

set_option maxHeartbeats 4000000 in
/-- The fifth window's array is σx with its unit axis dropped. -/
theorem V_sx (c : Dev nD) :
    (V m c main_v2 : S1024x128.Idx → EReal) = Cert.RefTerms.dropUnit (F := Ideal) (m ((c : Thread nD τ).loc main_arg4)) := by
  dsimp only [V, V0]
  simp only [hostOps0, hostOps0_1, List.flatten_cons, List.flatten_nil, List.append_nil, List.cons_append, List.nil_append]
  after_results_simp
  rfl

/-! ## The output array and the scalar, over the launch contents -/

/-- The output array after the region, as a function of the launch contents of the arguments. -/
theorem rows_eq (c : Dev nD) :
    Cert.KernelBlocks.rows m c = fun i => rowValue (Cert.RefTerms.gathered (F := Ideal) (m ((c : Thread nD τ).loc main_arg0)) (m ((c : Thread nD τ).loc main_arg5))) (m ((c : Thread nD τ).loc main_arg1)) (m ((c : Thread nD τ).loc main_arg2)) (Cert.RefTerms.dropUnit (F := Ideal) (m ((c : Thread nD τ).loc main_arg3))) (Cert.RefTerms.dropUnit (F := Ideal) (m ((c : Thread nD τ).loc main_arg4))) (i 0) := by
  unfold Cert.KernelBlocks.rows
  rw [V_gathered, V_main_arg1, V_main_arg2, V_mx, V_sx]

/-- The host's sum of a [1024] array over its axis, from the zero pattern: zero plus the sum of its entries. -/
theorem sumRows (x : FVec Ideal S1024 .f32) (i : S_.Idx) :
    Host.reduceAdd (F := Ideal) x (constant (F := Ideal) S_ .f32 0x00000000#32) reducesTo_S1024_S_d0 h_S_ i = 0 + ∑ j, x j := by
  simp only [Host.reduceAdd, Ideal.hostReduceAdd_def]
  refine (Ideal.hostReduceAdd_total reducesTo_S1024_S_d0 (fun b => b.elim0) x _ i).trans ?_
  congr 1
  exact Ideal.ofBits_zero_f32

/-- THE PROGRAM'S SCALAR: after the lines that follow the region, the result buffer holds `rowsTotal` of the
    gathered probabilities, μλ, σλ and the unit-dropped μx, σx of the launch contents. -/
theorem result_eq (c : Dev nD) :
    Pipeline.afterTail₀ cfgs (dats m) 0 (V0 m) [hostOps1] c main_v4
      = fun _ => rowsTotal (Cert.RefTerms.gathered (F := Ideal) (m ((c : Thread nD τ).loc main_arg0)) (m ((c : Thread nD τ).loc main_arg5))) (m ((c : Thread nD τ).loc main_arg1)) (m ((c : Thread nD τ).loc main_arg2)) (Cert.RefTerms.dropUnit (F := Ideal) (m ((c : Thread nD τ).loc main_arg3))) (Cert.RefTerms.dropUnit (F := Ideal) (m ((c : Thread nD τ).loc main_arg4))) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = Cert.KernelBlocks.rows m c :=
    (Pipeline.withArrays_arr spec0 launch0.win.arr_inj c _ _ 5).trans (Cert.KernelBlocks.final m c)
  rw [e]
  funext i
  rw [sumRows, rows_eq]
  rfl

/-! ## The run -/

/-- Every weakly fair execution of the kernel program terminates with its result at `rowsTotal` of the argument
    arrays' launch contents, and the argument arrays unchanged. -/
theorem run : θ_run defs (onTc (τ := τ) (main (F := Ideal))) ⟨m, fun _ => 0, ρ⟩ fun r => ∀ c : Dev nD,
      r.2.mem ((c.tc : Thread nD τ).loc main_v4) = (fun _ => rowsTotal (Cert.RefTerms.gathered (F := Ideal) (m ((c : Thread nD τ).loc main_arg0)) (m ((c : Thread nD τ).loc main_arg5))) (m ((c : Thread nD τ).loc main_arg1)) (m ((c : Thread nD τ).loc main_arg2)) (Cert.RefTerms.dropUnit (F := Ideal) (m ((c : Thread nD τ).loc main_arg3))) (Cert.RefTerms.dropUnit (F := Ideal) (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelValue

end
-- ==== Proof.FiniteDecoded.lean ====
/-
  The precondition `finite_inputs`, read at the ideal values (floats as extended reals), says of each of its five float
  arrays `x` that `jnp.all(|x| < +∞)`: the conjunction of five reductions by `and` of the one-bit arrays `|x| < +∞`.
  On the extended reals `|a| = max a (-a)`, and the pattern 0x7F800000 denotes `⊤`; `max a (-a) < ⊤` holds exactly when
  `a` is neither `⊤` nor `⊥`, that is, when `a` is a real number. Hence every entry of every float argument is real;
  `inputs_finite` states it for all five, the `decoded_…` theorems for the sixth argument.
-/
import proofs.«139463_j88716844466380_2_alg».proof.Pre_finite_inputs
import Idealize.ShloMosaic.PureOps.Ideal
import Idealize.ShloMosaic.Lib.ReduceAll
import Idealize.ShloMosaic.Lib.ValueIdx

noncomputable section

namespace Cert.FiniteDecoded

open Idealize.ShloMosaic
open Cert.Pre_finite_inputs

/-- The scalar shape has one index. -/
instance : Subsingleton S_.Idx := ⟨fun a b => funext fun d => d.elim0⟩

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | top => exact absurd rfl ht
  | coe r => exact ⟨r, rfl⟩

/-- One element of `|x| < +∞` being 1: on the extended reals `max x (-x) < ⊤`, so `x` is neither `⊤` nor `⊥`. -/
theorem ne_top_bot_of_abs_lt_inf (x : Ideal .f32)
    (h : FloatOps.cmpf .olt (FloatOps.hostAbsf x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-x) < ⊤ := by
    by_contra hn
    simp [hn] at h
  rw [max_lt_iff] at hlt
  refine ⟨ne_of_lt hlt.1, fun hb => ?_⟩
  rw [hb] at hlt
  simp at hlt

/-- `jnp.all(|x| < +∞) = 1` for an array `x` of any shape: every entry of `x` is neither `⊤` nor `⊥`. -/
theorem all_finite {s : Shape} {axes : List (Fin s.rank)} (x : FVec Ideal s .f32) (hb : S_.BroadcastsInDim s (![] : Fin 0 → Fin s.rank))
    (init : IVec S_ 1) (hr : s.ReducesTo axes S_) (hu : 0 < S_.numel)
    (e : Host.reduce IntOp.andi (cmpf .olt (Host.absf x) (broadcastInDim s ![] hb (constant S_ .f32 0x7F800000#32))) init hr hu
      ValueIdx.ix0 = 1#1) (j : s.Idx) : x j ≠ ⊤ ∧ x j ≠ ⊥ :=
  ne_top_bot_of_abs_lt_inf (x j) (Host.reduce_andi_all _ init hr hu ValueIdx.ix0 e j)

variable [Facts]

/-- THE PRECONDITION DECODED: every entry of each of the five float arguments is neither `⊤` nor `⊥`. -/
theorem inputs_finite
    (a0 : IVec S1024x10 32) (a1 a2 : FVec Ideal S1024x128 .f32)
    (a3 a4 : FVec Ideal S1024x1x128 .f32) (a5 : FVec Ideal S1024x50257 .f32)
    (h : fn (F := Ideal) a0 a1 a2 a3 a4 a5 = fun _ => 1#1) :
    (∀ j, a1 j ≠ ⊤ ∧ a1 j ≠ ⊥) ∧ (∀ j, a2 j ≠ ⊤ ∧ a2 j ≠ ⊥) ∧ (∀ j, a3 j ≠ ⊤ ∧ a3 j ≠ ⊥)
      ∧ (∀ j, a4 j ≠ ⊤ ∧ a4 j ≠ ⊥) ∧ (∀ j, a5 j ≠ ⊤ ∧ a5 j ≠ ⊥) := by
  have e := congrFun h ValueIdx.ix0
  dsimp only [fn, fn_part1] at e
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  exact ⟨all_finite a1 _ _ _ _ e1, all_finite a2 _ _ _ _ e2, all_finite a3 _ _ _ _ e3, all_finite a4 _ _ _ _ e4,
    all_finite a5 _ _ _ _ e5⟩

/-- Every entry of the sixth argument is neither `⊤` nor `⊥`. -/
theorem decoded_finite
    (a0 : IVec S1024x10 32) (a1 a2 : FVec Ideal S1024x128 .f32)
    (a3 a4 : FVec Ideal S1024x1x128 .f32) (a5 : FVec Ideal S1024x50257 .f32)
    (h : fn (F := Ideal) a0 a1 a2 a3 a4 a5 = fun _ => 1#1) :
    ∀ j, a5 j ≠ ⊤ ∧ a5 j ≠ ⊥ :=
  (inputs_finite a0 a1 a2 a3 a4 a5 h).2.2.2.2

/-- Every entry of the sixth argument is not `⊤`. -/
theorem decoded_ne_top
    (a0 : IVec S1024x10 32) (a1 a2 : FVec Ideal S1024x128 .f32)
    (a3 a4 : FVec Ideal S1024x1x128 .f32) (a5 : FVec Ideal S1024x50257 .f32)
    (h : fn (F := Ideal) a0 a1 a2 a3 a4 a5 = fun _ => 1#1) :
    ∀ j, a5 j ≠ ⊤ :=
  fun j => (decoded_finite a0 a1 a2 a3 a4 a5 h j).1

/-- Every entry of the sixth argument is not `⊥`. -/
theorem decoded_ne_bot
    (a0 : IVec S1024x10 32) (a1 a2 : FVec Ideal S1024x128 .f32)
    (a3 a4 : FVec Ideal S1024x1x128 .f32) (a5 : FVec Ideal S1024x50257 .f32)
    (h : fn (F := Ideal) a0 a1 a2 a3 a4 a5 = fun _ => 1#1) :
    ∀ j, a5 j ≠ ⊥ :=
  fun j => (decoded_finite a0 a1 a2 a3 a4 a5 h j).2

/-- Every entry of the sixth argument is a real number. -/
theorem decoded_real
    (a0 : IVec S1024x10 32) (a1 a2 : FVec Ideal S1024x128 .f32)
    (a3 a4 : FVec Ideal S1024x1x128 .f32) (a5 : FVec Ideal S1024x50257 .f32)
    (h : fn (F := Ideal) a0 a1 a2 a3 a4 a5 = fun _ => 1#1) :
    ∀ j, ∃ r : ℝ, a5 j = (r : EReal) :=
  fun j => exists_real_of_ne (decoded_finite a0 a1 a2 a3 a4 a5 h j).1 (decoded_finite a0 a1 a2 a3 a4 a5 h j).2

end Cert.FiniteDecoded

end
-- ==== Proof.GatheredNeTop.lean ====
/-
  The gathered probabilities never read `⊤` when the operand array does not. At an index the gathered array is a
  select between two values: an element of the operand (a gather reads the operand at one computed index, whatever
  that index is), and the splat of the NaN pattern 0x7FC00000. On the extended reals a NaN pattern denotes `⊥`, which is
  not `⊤`; an element of the operand is not `⊤` by hypothesis.
-/
import proofs.«139463_j88716844466380_2_alg».proof.Proof.RefTerms
import Idealize.ShloMosaic.PureOps.Ideal
import Idealize.ShloMosaic.Lib.ValueIdx

noncomputable section

namespace Cert.GatheredNeTop

open Idealize.ShloMosaic Cert.ReferenceIdeal

/-- The NaN pattern 0x7FC00000 denotes `⊥` on the extended reals. -/
theorem nan_pattern_eq_bot : Ideal.ofBits .f32 0x7FC00000#32 = ⊥ := by simp [Ideal.ofBits, Ideal.ieee]

/-- Every entry of the gathered array is an entry of the operand or `⊥`: if no entry of the operand is `⊤`, none of
    the gathered array is. -/
theorem gathered_ne_top (ctx : IVec S1024x10 32) (dec : FVec Ideal S1024x50257 .f32)
    (h : ∀ j, dec j ≠ ⊤) : ∀ i, Cert.RefTerms.gathered (F := Ideal) ctx dec i ≠ ⊤ := by
  intro i
  unfold Cert.RefTerms.gathered
  rw [ValueIdx.select_apply]
  unfold Scalar.select
  split
  · exact h _
  · show Ideal.ofBits .f32 0x7FC00000#32 ≠ ⊤
    rw [nan_pattern_eq_bot]
    exact bot_ne_top

end Cert.GatheredNeTop

end
-- ==== Proof.lean ====
/-
  An evidence lower bound: −(the log-likelihood of ten gathered word probabilities per row) + (the KL divergence
  between two diagonal Gaussians), summed over 1024 rows. The kernel and its reference, read on the extended reals.

  Both programs first gather `p[b, c] = decoded[b, context[b, c]]` by the same lowered take_along_axis (a negative index
  wrapped by the row length, an index still outside the row answered by the NaN pattern) and drop the unit axis of μx
  and σx. With `L[b, c] = log p[b, c]` and `K[b, d]` the elementwise KL term
  log(σx/σλ) + (σλ² + (μλ − μx)²)/(2σx²) − 1/2:

    the reference computes   −(Σ_{b,c} L[b, c]) + Σ_{b,d} K[b, d]            in one piece on the host;
    the kernel computes      Σ_b ( (0 − Σ_c L[b, c]) + Σ_d K[b, d] ),        a region of four grid points writing
                             256 rows each, then a host sum over the 1024 rows.

  On the extended reals addition is commutative and associative, so the sums regroup freely; what is NOT free is
  moving the negation across the sum over rows: −(⊤ + ⊥) = ⊤ while −⊤ + −⊥ = ⊥. It holds as soon as no row's
  Σ_c L[b, c] is +∞ (LibNegSum), and THAT is where the precondition is used: every entry of `decoded` is a real
  number (FiniteDecoded), a gathered element is an entry of `decoded` or the NaN pattern, which denotes ⊥
  (GatheredNeTop), and the logarithm of anything but +∞ is not +∞ (Spec.log_ne_top). Nothing is assumed of the
  integer indices, and nothing of μ and σ beyond what the two programs share: both apply the same total operations
  to the same elements of the KL term.

  The modules: RefTerms / RefRun / RefValue — the reference's run and its scalar as `Spec.flatTotal`;
  KernelRow / KernelBlocks / KernelValue — the body's value at a row, the output array from its four blocks, the
  host lines around the region, and the kernel program's scalar as `Spec.rowsTotal`; Spec — the two arrangements
  and the law between them. The three frames are the programs' runs with the results dropped; the idealization
  rewrote nothing, so `preserves` is trivial.
-/
import proofs.«139463_j88716844466380_2_alg».proof.Defs
import proofs.«139463_j88716844466380_2_alg».proof.Proof.Gen.Kernel
import proofs.«139463_j88716844466380_2_alg».proof.Proof.Gen.Kernel.Skeleton
import proofs.«139463_j88716844466380_2_alg».proof.Proof.Gen.Kernel.Launch
import proofs.«139463_j88716844466380_2_alg».proof.Proof.Gen.Kernel.Points
import proofs.«139463_j88716844466380_2_alg».proof.Proof.Gen.Kernel.Frame
import proofs.«139463_j88716844466380_2_alg».proof.Proof.Gen.KernelIdeal
import proofs.«139463_j88716844466380_2_alg».proof.Proof.Gen.KernelIdeal.Skeleton
import proofs.«139463_j88716844466380_2_alg».proof.Proof.Gen.KernelIdeal.Launch
import proofs.«139463_j88716844466380_2_alg».proof.Proof.Gen.KernelIdeal.Points
import proofs.«139463_j88716844466380_2_alg».proof.Proof.Gen.KernelIdeal.Frame
import proofs.«139463_j88716844466380_2_alg».proof.Proof.Gen.ReferenceIdeal
import proofs.«139463_j88716844466380_2_alg».proof.Proof.Gen.Pre_finite_inputs
import proofs.«139463_j88716844466380_2_alg».proof.Proof.RefRun
import proofs.«139463_j88716844466380_2_alg».proof.Proof.RefValue
import proofs.«139463_j88716844466380_2_alg».proof.Proof.KernelValue
import proofs.«139463_j88716844466380_2_alg».proof.Proof.FiniteDecoded
import proofs.«139463_j88716844466380_2_alg».proof.Proof.GatheredNeTop
import Idealize.ShloMosaic.Adequacy
import Idealize.ShloMosaic.Init

noncomputable section

namespace Cert.Proof

open Idealize.ShloMosaic Idealize.SL.Sem

/-- The word-level kernel program runs, faults nowhere and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.RefRun.run (F := Ideal) m ρ)

/-- The idealization rewrote no operation. -/
theorem preserves : Cert.preserves_Kernel_KernelIdeal := trivial

/-- From memories that agree on the arguments both programs end at the reference's arrangement of the scalar: the
    reference by its run, the kernel by its run and the law `rowsTotal = flatTotal`, whose hypothesis — no logarithm
    of a gathered probability is +∞ — comes from the finiteness of `decoded`. -/
theorem algebraic : Cert.algebraic_KernelIdeal_ReferenceIdeal := by
  intro m ρ m' ρ' hpre hagree
  refine ⟨fun c => fun _ => Cert.Spec.flatTotal
      (Cert.RefTerms.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.RefTerms.dropUnit (F := Ideal) (m ((c.tc : Thread Cert.KernelIdeal.nD Cert.KernelIdeal.τ).loc Cert.KernelIdeal.main_arg3))) (Cert.RefTerms.dropUnit (F := Ideal) (m ((c.tc : Thread Cert.KernelIdeal.nD Cert.KernelIdeal.τ).loc Cert.KernelIdeal.main_arg4))), ?_, ?_⟩
  · refine (θ_run (Cert.KernelIdeal.defs (F := Ideal)) _ _).mono (fun _ h c => ⟨(h c).1.trans ?_, (h c).2⟩)
      (Cert.KernelValue.run m ρ)
    funext _
    exact Cert.Spec.rowsTotal_eq_flatTotal _ _ _ _ _ fun j =>
      Cert.Spec.log_ne_top (Cert.GatheredNeTop.gathered_ne_top _ _
        (Cert.FiniteDecoded.decoded_ne_top _ _ _ _ _ _ (hpre c)) j)
  · refine (θ_run (Cert.ReferenceIdeal.defs (F := Ideal)) _ _).mono (fun _ h c => ⟨(h c).1.trans ?_, (h c).2⟩)
      (Cert.RefRun.run (F := Ideal) m' ρ')
    rw [(hagree c).1, (hagree c).2.1, (hagree c).2.2.1, (hagree c).2.2.2.1, (hagree c).2.2.2.2.1, (hagree c).2.2.2.2.2]
    exact Cert.RefValue.total_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
